-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S10000x1024 : Shape := ⟨2, ![10000, 1024]⟩
abbrev S1024x1024 : Shape := ⟨2, ![1024, 1024]⟩
abbrev S50000x256 : Shape := ⟨2, ![50000, 256]⟩
abbrev S256x1024 : Shape := ⟨2, ![256, 1024]⟩
abbrev S130000x64 : Shape := ⟨2, ![130000, 64]⟩
abbrev S64x1024 : Shape := ⟨2, ![64, 1024]⟩
abbrev S60000x16 : Shape := ⟨2, ![60000, 16]⟩
abbrev S16x1024 : Shape := ⟨2, ![16, 1024]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S50000x256 : S_.BroadcastsInDim S50000x256 (![] : Fin 0 → Fin S50000x256.rank)
  reducesTo_S50000x256_S_d0_1 : S50000x256.ReducesTo [0, 1] S_
  bcast_S_S256x1024 : S_.BroadcastsInDim S256x1024 (![] : Fin 0 → Fin S256x1024.rank)
  reducesTo_S256x1024_S_d0_1 : S256x1024.ReducesTo [0, 1] S_
  bcast_S_S130000x64 : S_.BroadcastsInDim S130000x64 (![] : Fin 0 → Fin S130000x64.rank)
  reducesTo_S130000x64_S_d0_1 : S130000x64.ReducesTo [0, 1] S_
  bcast_S_S64x1024 : S_.BroadcastsInDim S64x1024 (![] : Fin 0 → Fin S64x1024.rank)
  reducesTo_S64x1024_S_d0_1 : S64x1024.ReducesTo [0, 1] S_
  bcast_S_S60000x16 : S_.BroadcastsInDim S60000x16 (![] : Fin 0 → Fin S60000x16.rank)
  reducesTo_S60000x16_S_d0_1 : S60000x16.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part2 {F : FTy → Type} [FloatOps F] (main_arg8 : FVec F S16x1024 .f32) (main_v33 : IVec S_ 1) : IVec S_ 1 :=
  let main_v34 : FVec F S16x1024 .f32 := Host.absf main_arg8
  let main_cst_12 : FVec F S_ .f32 := constant S_ .f32 0x7F800000#32
  let main_v35 : FVec F S16x1024 .f32 := broadcastInDim S16x1024 ![] bcast_S_S16x1024 main_cst_12
  let main_v36 : IVec S16x1024 1 := cmpf .olt main_v34 main_v35
  let main_c_13 : IVec S_ 1 := constantI S_ 1 1#1
  let main_v37 : IVec S_ 1 := (fun x v => Host.reduce IntOp.andi x v reducesTo_S16x1024_S_d0_1 h_S_) main_v36 main_c_13
  let main_v38 : IVec S_ 1 := andi main_v33 main_v37
  main_v38

def fn_part1 {F : FTy → Type} [FloatOps F] (main_arg5 : FVec F S130000x64 .f32) (main_arg6 : FVec F S64x1024 .f32) (main_arg7 : FVec F S60000x16 .f32) (main_arg8 : FVec F S16x1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S130000x64 .f32 := Host.absf main_arg5
  let main_cst_6 : FVec F S_ .f32 := constant S_ .f32 0x7F800000#32
  let main_v20 : FVec F S130000x64 .f32 := broadcastInDim S130000x64 ![] bcast_S_S130000x64 main_cst_6
  let main_v21 : IVec S130000x64 1 := cmpf .olt main_v19 main_v20
  let main_c_7 : IVec S_ 1 := constantI S_ 1 1#1
  let main_v22 : IVec S_ 1 := (fun x v => Host.reduce IntOp.andi x v reducesTo_S130000x64_S_d0_1 h_S_) main_v21 main_c_7
  let main_v23 : IVec S_ 1 := andi main_v18 main_v22
  let main_v24 : FVec F S64x1024 .f32 := Host.absf main_arg6
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S60000x16 .f32 := Host.absf main_arg7
  let main_cst_10 : FVec F S_ .f32 := constant S_ .f32 0x7F800000#32
  let main_v30 : FVec F S60000x16 .f32 := broadcastInDim S60000x16 ![] bcast_S_S60000x16 main_cst_10
  let main_v31 : IVec S60000x16 1 := cmpf .olt main_v29 main_v30
  let main_c_11 : IVec S_ 1 := constantI S_ 1 1#1
  let main_v32 : IVec S_ 1 := (fun x v => Host.reduce IntOp.andi x v reducesTo_S60000x16_S_d0_1 h_S_) main_v31 main_c_11
  let main_v33 : IVec S_ 1 := andi main_v28 main_v32
  fn_part2 (F := F) main_arg8 main_v33

def fn {F : FTy → Type} [FloatOps F] (main_arg0 : IVec S8x4096 32) (main_arg1 : FVec F S10000x1024 .f32) (main_arg2 : FVec F S1024x1024 .f32) (main_arg3 : FVec F S50000x256 .f32) (main_arg4 : FVec F S256x1024 .f32) (main_arg5 : FVec F S130000x64 .f32) (main_arg6 : FVec F S64x1024 .f32) (main_arg7 : FVec F S60000x16 .f32) (main_arg8 : FVec F S16x1024 .f32) : IVec S_ 1 :=
  let main_v0 : FVec F S10000x1024 .f32 := Host.absf main_arg1
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S256x1024 .f32 := Host.absf main_arg4
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg5 main_arg6 main_arg7 main_arg8 main_v13 main_v16
-- ==== Kernel.lean ====
abbrev S8x4096 : Shape := ⟨2, ![8, 4096]⟩
abbrev S10000x1024 : Shape := ⟨2, ![10000, 1024]⟩
abbrev S1024x1024 : Shape := ⟨2, ![1024, 1024]⟩
abbrev S50000x256 : Shape := ⟨2, ![50000, 256]⟩
abbrev S256x1024 : Shape := ⟨2, ![256, 1024]⟩
abbrev S130000x64 : Shape := ⟨2, ![130000, 64]⟩
abbrev S64x1024 : Shape := ⟨2, ![64, 1024]⟩
abbrev S60000x16 : Shape := ⟨2, ![60000, 16]⟩
abbrev S16x1024 : Shape := ⟨2, ![16, 1024]⟩
abbrev S32768 : Shape := ⟨1, ![32768]⟩
abbrev S_ : Shape := ⟨0, ![]⟩
abbrev S32768x1 : Shape := ⟨2, ![32768, 1]⟩
abbrev S32768x1024 : Shape := ⟨2, ![32768, 1024]⟩
abbrev S32768x256 : Shape := ⟨2, ![32768, 256]⟩
abbrev S32768x64 : Shape := ⟨2, ![32768, 64]⟩
abbrev S32768x16 : Shape := ⟨2, ![32768, 16]⟩
abbrev S1024x256 : Shape := ⟨2, ![1024, 256]⟩
abbrev S1024x64 : Shape := ⟨2, ![1024, 64]⟩
abbrev S1024x16 : Shape := ⟨2, ![1024, 16]⟩
abbrev S8x4096x1024 : Shape := ⟨3, ![8, 4096, 1024]⟩

abbrev nBuf : Space → Nat
  | .hbm => 138
  | .vmem => 14
  | .smem => 0
  | _ => 0

abbrev hbmTy0_0 (i : Nat) : BufTy := match i % 128 with
  | 0 => ⟨S8x4096, .i32⟩
  | 1 => ⟨S10000x1024, .f32⟩
  | 2 => ⟨S1024x1024, .f32⟩
  | 3 => ⟨S50000x256, .f32⟩
  | 4 => ⟨S256x1024, .f32⟩
  | 5 => ⟨S130000x64, .f32⟩
  | 6 => ⟨S64x1024, .f32⟩
  | 7 => ⟨S60000x16, .f32⟩
  | 8 => ⟨S16x1024, .f32⟩
  | 9 => ⟨S32768, .i32⟩
  | 10 => ⟨S_, .i32⟩
  | 11 => ⟨S_, .i32⟩
  | 12 => ⟨S_, .i32⟩
  | 13 => ⟨S32768, .i32⟩
  | 14 => ⟨S32768, .i32⟩
  | 15 => ⟨S_, .i32⟩
  | 16 => ⟨S32768, .i32⟩
  | 17 => ⟨S32768, .i32⟩
  | 18 => ⟨S_, .i32⟩
  | 19 => ⟨S32768, .i32⟩
  | 20 => ⟨S32768, .i1⟩
  | 21 => ⟨S_, .i32⟩
  | 22 => ⟨S32768, .i32⟩
  | 23 => ⟨S32768, .i1⟩
  | 24 => ⟨S_, .i32⟩
  | 25 => ⟨S32768, .i32⟩
  | 26 => ⟨S32768, .i32⟩
  | 27 => ⟨S32768, .i32⟩
  | 28 => ⟨S32768x1, .i32⟩
  | 29 => ⟨S32768x1024, .f32⟩
  | 30 => ⟨S32768x1, .i1⟩
  | 31 => ⟨S32768x1, .f32⟩
  | 32 => ⟨S32768x1024, .f32⟩
  | 33 => ⟨S32768x1024, .f32⟩
  | 34 => ⟨S_, .i32⟩
  | 35 => ⟨S32768, .i32⟩
  | 36 => ⟨S32768, .i32⟩
  | 37 => ⟨S_, .i32⟩
  | 38 => ⟨S_, .i32⟩
  | 39 => ⟨S_, .i32⟩
  | 40 => ⟨S32768, .i32⟩
  | 41 => ⟨S32768, .i32⟩
  | 42 => ⟨S_, .i32⟩
  | 43 => ⟨S32768, .i32⟩
  | 44 => ⟨S32768, .i32⟩
  | 45 => ⟨S_, .i32⟩
  | 46 => ⟨S32768, .i32⟩
  | 47 => ⟨S32768, .i1⟩
  | 48 => ⟨S_, .i32⟩
  | 49 => ⟨S32768, .i32⟩
  | 50 => ⟨S32768, .i1⟩
  | 51 => ⟨S32768, .i1⟩
  | 52 => ⟨S_, .i32⟩
  | 53 => ⟨S32768, .i32⟩
  | 54 => ⟨S32768, .i1⟩
  | 55 => ⟨S_, .i32⟩
  | 56 => ⟨S32768, .i32⟩
  | 57 => ⟨S32768, .i32⟩
  | 58 => ⟨S32768, .i32⟩
  | 59 => ⟨S32768x1, .i32⟩
  | 60 => ⟨S32768x256, .f32⟩
  | 61 => ⟨S32768x1, .i1⟩
  | 62 => ⟨S32768x1, .f32⟩
  | 63 => ⟨S32768x256, .f32⟩
  | 64 => ⟨S32768x256, .f32⟩
  | 65 => ⟨S_, .i32⟩
  | 66 => ⟨S32768, .i32⟩
  | 67 => ⟨S32768, .i32⟩
  | 68 => ⟨S_, .i32⟩
  | 69 => ⟨S_, .i32⟩
  | 70 => ⟨S_, .i32⟩
  | 71 => ⟨S32768, .i32⟩
  | 72 => ⟨S32768, .i32⟩
  | 73 => ⟨S_, .i32⟩
  | 74 => ⟨S32768, .i32⟩
  | 75 => ⟨S32768, .i32⟩
  | 76 => ⟨S_, .i32⟩
  | 77 => ⟨S32768, .i32⟩
  | 78 => ⟨S32768, .i1⟩
  | 79 => ⟨S_, .i32⟩
  | 80 => ⟨S32768, .i32⟩
  | 81 => ⟨S32768, .i1⟩
  | 82 => ⟨S32768, .i1⟩
  | 83 => ⟨S_, .i32⟩
  | 84 => ⟨S32768, .i32⟩
  | 85 => ⟨S32768, .i1⟩
  | 86 => ⟨S_, .i32⟩
  | 87 => ⟨S32768, .i32⟩
  | 88 => ⟨S32768, .i32⟩
  | 89 => ⟨S32768, .i32⟩
  | 90 => ⟨S32768x1, .i32⟩
  | 91 => ⟨S32768x64, .f32⟩
  | 92 => ⟨S32768x1, .i1⟩
  | 93 => ⟨S32768x1, .f32⟩
  | 94 => ⟨S32768x64, .f32⟩
  | 95 => ⟨S32768x64, .f32⟩
  | 96 => ⟨S_, .i32⟩
  | 97 => ⟨S32768, .i32⟩
  | 98 => ⟨S32768, .i32⟩
  | 99 => ⟨S_, .i32⟩
  | 100 => ⟨S_, .i32⟩
  | 101 => ⟨S_, .i32⟩
  | 102 => ⟨S32768, .i32⟩
  | 103 => ⟨S32768, .i32⟩
  | 104 => ⟨S_, .i32⟩
  | 105 => ⟨S32768, .i32⟩
  | 106 => ⟨S32768, .i32⟩
  | 107 => ⟨S_, .i32⟩
  | 108 => ⟨S32768, .i32⟩
  | 109 => ⟨S32768, .i1⟩
  | 110 => ⟨S_, .i32⟩
  | 111 => ⟨S32768, .i32⟩
  | 112 => ⟨S32768, .i1⟩
  | 113 => ⟨S32768, .i1⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S32768x16, .f32⟩
  | 123 => ⟨S32768x1, .i1⟩
  | 124 => ⟨S32768x1, .f32⟩
  | 125 => ⟨S32768x16, .f32⟩
  | 126 => ⟨S32768x16, .f32⟩
  | 127 => ⟨S32768x1024, .bf16⟩
  | _ => ⟨S8x4096, .i32⟩

abbrev hbmTy0_1 (i : Nat) : BufTy := match i % 128 with
  | 0 => ⟨S1024x1024, .f32⟩
  | 1 => ⟨S1024x1024, .bf16⟩
  | 2 => ⟨S32768x256, .bf16⟩
  | 3 => ⟨S256x1024, .bf16⟩
  | 4 => ⟨S32768x64, .bf16⟩
  | 5 => ⟨S64x1024, .bf16⟩
  | 6 => ⟨S32768x16, .bf16⟩
  | 7 => ⟨S16x1024, .bf16⟩
  | 8 => ⟨S32768x1024, .f32⟩
  | 9 => ⟨S8x4096x1024, .f32⟩
  | _ => ⟨S8x4096, .i32⟩

abbrev hbmTy (i : Nat) : BufTy := match i / 128 with
  | 0 => hbmTy0_0 i
  | 1 => hbmTy0_1 i
  | _ => ⟨S8x4096, .i32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x256, .bf16⟩
  | .local _ .vmem, ⟨4, _⟩ => ⟨S1024x256, .bf16⟩
  | .local _ .vmem, ⟨5, _⟩ => ⟨S256x1024, .bf16⟩
  | .local _ .vmem, ⟨6, _⟩ => ⟨S1024x64, .bf16⟩
  | .local _ .vmem, ⟨7, _⟩ => ⟨S1024x64, .bf16⟩
  | .local _ .vmem, ⟨8, _⟩ => ⟨S64x1024, .bf16⟩
  | .local _ .vmem, ⟨9, _⟩ => ⟨S1024x16, .bf16⟩
  | .local _ .vmem, ⟨10, _⟩ => ⟨S1024x16, .bf16⟩
  | .local _ .vmem, ⟨11, _⟩ => ⟨S16x1024, .bf16⟩
  | .local _ .vmem, ⟨12, _⟩ => ⟨S1024x1024, .f32⟩
  | .local _ .vmem, ⟨13, _⟩ => ⟨S1024x1024, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_c_1 : Ref sig .tc := ⟨.hbm, 18, rfl⟩
abbrev main_v2 : Ref sig .tc := ⟨.hbm, 19, rfl⟩
abbrev main_v3 : Ref sig .tc := ⟨.hbm, 20, rfl⟩
abbrev main_c_2 : Ref sig .tc := ⟨.hbm, 21, rfl⟩
abbrev main_v4 : Ref sig .tc := ⟨.hbm, 22, rfl⟩
abbrev main_v5 : Ref sig .tc := ⟨.hbm, 23, rfl⟩
abbrev main_c_3 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_c_6 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v17 : Ref sig .tc := ⟨.hbm, 44, rfl⟩
abbrev main_c_7 : Ref sig .tc := ⟨.hbm, 45, rfl⟩
abbrev main_v18 : Ref sig .tc := ⟨.hbm, 46, rfl⟩
abbrev main_v19 : Ref sig .tc := ⟨.hbm, 47, rfl⟩
abbrev main_c_8 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_9 : Ref sig .tc := ⟨.hbm, 52, rfl⟩
abbrev main_v23 : Ref sig .tc := ⟨.hbm, 53, rfl⟩
abbrev main_v24 : Ref sig .tc := ⟨.hbm, 54, rfl⟩
abbrev main_c_10 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_11 : Ref sig .tc := ⟨.hbm, 65, rfl⟩
abbrev main_v34 : Ref sig .tc := ⟨.hbm, 66, rfl⟩
abbrev main_v35 : Ref sig .tc := ⟨.hbm, 67, rfl⟩
abbrev main_c_12 : Ref sig .tc := ⟨.hbm, 68, rfl⟩
abbrev main_c_13 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v36 : Ref sig .tc := ⟨.hbm, 75, rfl⟩
abbrev main_c_14 : Ref sig .tc := ⟨.hbm, 76, rfl⟩
abbrev main_v37 : Ref sig .tc := ⟨.hbm, 77, rfl⟩
abbrev main_v38 : Ref sig .tc := ⟨.hbm, 78, rfl⟩
abbrev main_c_15 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_16 : Ref sig .tc := ⟨.hbm, 83, rfl⟩
abbrev main_v42 : Ref sig .tc := ⟨.hbm, 84, rfl⟩
abbrev main_v43 : Ref sig .tc := ⟨.hbm, 85, rfl⟩
abbrev main_c_17 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_18 : Ref sig .tc := ⟨.hbm, 96, rfl⟩
abbrev main_v53 : Ref sig .tc := ⟨.hbm, 97, rfl⟩
abbrev main_v54 : Ref sig .tc := ⟨.hbm, 98, rfl⟩
abbrev main_c_19 : Ref sig .tc := ⟨.hbm, 99, rfl⟩
abbrev main_c_20 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v55 : Ref sig .tc := ⟨.hbm, 106, rfl⟩
abbrev main_c_21 : Ref sig .tc := ⟨.hbm, 107, rfl⟩
abbrev main_v56 : Ref sig .tc := ⟨.hbm, 108, rfl⟩
abbrev main_v57 : Ref sig .tc := ⟨.hbm, 109, rfl⟩
abbrev main_c_22 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_c_23 : Ref sig .tc := ⟨.hbm, 114, rfl⟩
abbrev main_v61 : Ref sig .tc := ⟨.hbm, 115, rfl⟩
abbrev main_v62 : Ref sig .tc := ⟨.hbm, 116, rfl⟩
abbrev main_c_24 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1024_0_1 : S32768x1.BroadcastsInDim S32768x1024 (![0, 1] : Fin 2 → Fin S32768x1024.rank)
  bcast_S32768x1_S32768x256_0_1 : S32768x1.BroadcastsInDim S32768x256 (![0, 1] : Fin 2 → Fin S32768x256.rank)
  bcast_S32768x1_S32768x64_0_1 : S32768x1.BroadcastsInDim S32768x64 (![0, 1] : Fin 2 → Fin S32768x64.rank)
  bcast_S32768x1_S32768x16_0_1 : S32768x1.BroadcastsInDim S32768x16 (![0, 1] : Fin 2 → Fin S32768x16.rank)
  bitsLt_bf16_f32 : FTy.bits .bf16 < FTy.bits .f32
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S32768x1024_S8x4096x1024 : S32768x1024.ShapeCasts S8x4096x1024
  gather_S10000x1024_S32768x1_S32768x1024_1_0_n_n_0_1_11024_wf : GatherDims.WF S10000x1024 S32768x1 S32768x1024 [1] [0] [] [0] [] 1 ![1, 1024]
  gather_S50000x256_S32768x1_S32768x256_1_0_n_n_0_1_1256_wf : GatherDims.WF S50000x256 S32768x1 S32768x256 [1] [0] [] [0] [] 1 ![1, 256]
  gather_S130000x64_S32768x1_S32768x64_1_0_n_n_0_1_164_wf : GatherDims.WF S130000x64 S32768x1 S32768x64 [1] [0] [] [0] [] 1 ![1, 64]
  gather_S60000x16_S32768x1_S32768x16_1_0_n_n_0_1_116_wf : GatherDims.WF S60000x16 S32768x1 S32768x16 [1] [0] [] [0] [] 1 ![1, 16]
  dot_S1024x1024_S1024x1024_S1024x1024_1_0_0_1_n_n_wf : DotDims.WF S1024x1024 S1024x1024 S1024x1024 [1] [0] [0] [1] [] []
  dot_S1024x256_S256x1024_S1024x1024_1_0_0_1_n_n_wf : DotDims.WF S1024x256 S256x1024 S1024x1024 [1] [0] [0] [1] [] []
  dot_S1024x64_S64x1024_S1024x1024_1_0_0_1_n_n_wf : DotDims.WF S1024x64 S64x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .bf16 = 32 ∨ (Rect.block (s := S32768x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .bf16 = 32 ∨ (Rect.block (s := S32768x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S32768x64.size a
  hwx0_4 : ∀ i : grid0.Coords, EltTy.bits .bf16 = 32 ∨ (Rect.block (s := S32768x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .bf16 = 32 ∨ (Rect.block (s := S64x1024) S64x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x16.size a ≤ S32768x16.size a
  hwx0_6 : ∀ i : grid0.Coords, EltTy.bits .bf16 = 32 ∨ (Rect.block (s := S32768x16) S1024x16.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1024.size a ≤ S16x1024.size a
  hwx0_7 : ∀ i : grid0.Coords, EltTy.bits .bf16 = 32 ∨ (Rect.block (s := S16x1024) S16x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S32768x1024.size a
  hwx0_8 : ∀ i : grid0.Coords, EltTy.bits .f32 = 32 ∨ (Rect.block (s := S32768x1024) S1024x1024.size (cc0_transform_8 i) (hinb0_8 i)).WholeWords (EltTy.packing .f32)

variable [Facts₀]

def gather_S10000x1024_S32768x1_S32768x1024_1_0_n_n_0_1_11024 : GatherDims S10000x1024 S32768x1 S32768x1024 where
  offsetDims := [1]
  collapsedSliceDims := [0]
  operandBatchingDims := []
  startIndicesBatchingDims := []
  startIndexMap := [0]
  indexVectorDim := 1
  sliceSizes := ![1, 1024]
  wf := gather_S10000x1024_S32768x1_S32768x1024_1_0_n_n_0_1_11024_wf
def gather_S50000x256_S32768x1_S32768x256_1_0_n_n_0_1_1256 : GatherDims S50000x256 S32768x1 S32768x256 where
  offsetDims := [1]
  collapsedSliceDims := [0]
  operandBatchingDims := []
  startIndicesBatchingDims := []
  startIndexMap := [0]
  indexVectorDim := 1
  sliceSizes := ![1, 256]
  wf := gather_S50000x256_S32768x1_S32768x256_1_0_n_n_0_1_1256_wf
def gather_S130000x64_S32768x1_S32768x64_1_0_n_n_0_1_164 : GatherDims S130000x64 S32768x1 S32768x64 where
  offsetDims := [1]
  collapsedSliceDims := [0]
  operandBatchingDims := []
  startIndicesBatchingDims := []
  startIndexMap := [0]
  indexVectorDim := 1
  sliceSizes := ![1, 64]
  wf := gather_S130000x64_S32768x1_S32768x64_1_0_n_n_0_1_164_wf
def gather_S60000x16_S32768x1_S32768x16_1_0_n_n_0_1_116 : GatherDims S60000x16 S32768x1 S32768x16 where
  offsetDims := [1]
  collapsedSliceDims := [0]
  operandBatchingDims := []
  startIndicesBatchingDims := []
  startIndexMap := [0]
  indexVectorDim := 1
  sliceSizes := ![1, 16]
  wf := gather_S60000x16_S32768x1_S32768x16_1_0_n_n_0_1_116_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v72) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v75) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v76) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v77) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v78) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v79) S1024x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v80) S16x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x4096 : Shape := ⟨2, ![8, 4096]⟩
abbrev S10000x1024 : Shape := ⟨2, ![10000, 1024]⟩
abbrev S1024x1024 : Shape := ⟨2, ![1024, 1024]⟩
abbrev S50000x256 : Shape := ⟨2, ![50000, 256]⟩
abbrev S256x1024 : Shape := ⟨2, ![256, 1024]⟩
abbrev S130000x64 : Shape := ⟨2, ![130000, 64]⟩
abbrev S64x1024 : Shape := ⟨2, ![64, 1024]⟩
abbrev S60000x16 : Shape := ⟨2, ![60000, 16]⟩
abbrev S16x1024 : Shape := ⟨2, ![16, 1024]⟩
abbrev S32768 : Shape := ⟨1, ![32768]⟩
abbrev S_ : Shape := ⟨0, ![]⟩
abbrev S32768x1 : Shape := ⟨2, ![32768, 1]⟩
abbrev S32768x1024 : Shape := ⟨2, ![32768, 1024]⟩
abbrev S32768x256 : Shape := ⟨2, ![32768, 256]⟩
abbrev S32768x64 : Shape := ⟨2, ![32768, 64]⟩
abbrev S32768x16 : Shape := ⟨2, ![32768, 16]⟩
abbrev S8x4096x1024 : Shape := ⟨3, ![8, 4096, 1024]⟩

abbrev nBuf : Space → Nat
  | .hbm => 131
  | .vmem => 0
  | .smem => 0
  | _ => 0

abbrev hbmTy0_0 (i : Nat) : BufTy := match i % 128 with
  | 0 => ⟨S8x4096, .i32⟩
  | 1 => ⟨S10000x1024, .f32⟩
  | 2 => ⟨S1024x1024, .f32⟩
  | 3 => ⟨S50000x256, .f32⟩
  | 4 => ⟨S256x1024, .f32⟩
  | 5 => ⟨S130000x64, .f32⟩
  | 6 => ⟨S64x1024, .f32⟩
  | 7 => ⟨S60000x16, .f32⟩
  | 8 => ⟨S16x1024, .f32⟩
  | 9 => ⟨S32768, .i32⟩
  | 10 => ⟨S_, .i32⟩
  | 11 => ⟨S_, .i32⟩
  | 12 => ⟨S_, .i32⟩
  | 13 => ⟨S32768, .i32⟩
  | 14 => ⟨S32768, .i32⟩
  | 15 => ⟨S_, .i32⟩
  | 16 => ⟨S32768, .i32⟩
  | 17 => ⟨S32768, .i32⟩
  | 18 => ⟨S_, .i32⟩
  | 19 => ⟨S32768, .i32⟩
  | 20 => ⟨S32768, .i1⟩
  | 21 => ⟨S_, .i32⟩
  | 22 => ⟨S32768, .i32⟩
  | 23 => ⟨S32768, .i32⟩
  | 24 => ⟨S32768, .i32⟩
  | 25 => ⟨S32768x1, .i32⟩
  | 26 => ⟨S32768x1024, .f32⟩
  | 27 => ⟨S32768x1024, .f32⟩
  | 28 => ⟨S_, .i32⟩
  | 29 => ⟨S32768, .i32⟩
  | 30 => ⟨S32768, .i1⟩
  | 31 => ⟨S32768x1, .i1⟩
  | 32 => ⟨S_, .f32⟩
  | 33 => ⟨S_, .f32⟩
  | 34 => ⟨S32768x1024, .i1⟩
  | 35 => ⟨S32768x1024, .f32⟩
  | 36 => ⟨S32768x1024, .f32⟩
  | 37 => ⟨S_, .i32⟩
  | 38 => ⟨S32768, .i32⟩
  | 39 => ⟨S32768, .i32⟩
  | 40 => ⟨S_, .i32⟩
  | 41 => ⟨S_, .i32⟩
  | 42 => ⟨S_, .i32⟩
  | 43 => ⟨S32768, .i32⟩
  | 44 => ⟨S32768, .i32⟩
  | 45 => ⟨S_, .i32⟩
  | 46 => ⟨S32768, .i32⟩
  | 47 => ⟨S32768, .i32⟩
  | 48 => ⟨S_, .i32⟩
  | 49 => ⟨S32768, .i32⟩
  | 50 => ⟨S32768, .i1⟩
  | 51 => ⟨S_, .i32⟩
  | 52 => ⟨S32768, .i32⟩
  | 53 => ⟨S32768, .i32⟩
  | 54 => ⟨S32768, .i32⟩
  | 55 => ⟨S32768x1, .i32⟩
  | 56 => ⟨S32768x256, .f32⟩
  | 57 => ⟨S32768x1024, .f32⟩
  | 58 => ⟨S_, .i32⟩
  | 59 => ⟨S32768, .i32⟩
  | 60 => ⟨S32768, .i1⟩
  | 61 => ⟨S_, .i32⟩
  | 62 => ⟨S32768, .i32⟩
  | 63 => ⟨S32768, .i1⟩
  | 64 => ⟨S32768, .i1⟩
  | 65 => ⟨S32768x1, .i1⟩
  | 66 => ⟨S32768x1024, .i1⟩
  | 67 => ⟨S32768x1024, .f32⟩
  | 68 => ⟨S_, .i32⟩
  | 69 => ⟨S32768, .i32⟩
  | 70 => ⟨S32768, .i32⟩
  | 71 => ⟨S_, .i32⟩
  | 72 => ⟨S_, .i32⟩
  | 73 => ⟨S_, .i32⟩
  | 74 => ⟨S32768, .i32⟩
  | 75 => ⟨S32768, .i32⟩
  | 76 => ⟨S_, .i32⟩
  | 77 => ⟨S32768, .i32⟩
  | 78 => ⟨S32768, .i32⟩
  | 79 => ⟨S_, .i32⟩
  | 80 => ⟨S32768, .i32⟩
  | 81 => ⟨S32768, .i1⟩
  | 82 => ⟨S_, .i32⟩
  | 83 => ⟨S32768, .i32⟩
  | 84 => ⟨S32768, .i32⟩
  | 85 => ⟨S32768, .i32⟩
  | 86 => ⟨S32768x1, .i32⟩
  | 87 => ⟨S32768x64, .f32⟩
  | 88 => ⟨S32768x1024, .f32⟩
  | 89 => ⟨S_, .i32⟩
  | 90 => ⟨S32768, .i32⟩
  | 91 => ⟨S32768, .i1⟩
  | 92 => ⟨S_, .i32⟩
  | 93 => ⟨S32768, .i32⟩
  | 94 => ⟨S32768, .i1⟩
  | 95 => ⟨S32768, .i1⟩
  | 96 => ⟨S32768x1, .i1⟩
  | 97 => ⟨S32768x1024, .i1⟩
  | 98 => ⟨S32768x1024, .f32⟩
  | 99 => ⟨S_, .i32⟩
  | 100 => ⟨S32768, .i32⟩
  | 101 => ⟨S32768, .i32⟩
  | 102 => ⟨S_, .i32⟩
  | 103 => ⟨S_, .i32⟩
  | 104 => ⟨S_, .i32⟩
  | 105 => ⟨S32768, .i32⟩
  | 106 => ⟨S32768, .i32⟩
  | 107 => ⟨S_, .i32⟩
  | 108 => ⟨S32768, .i32⟩
  | 109 => ⟨S32768, .i32⟩
  | 110 => ⟨S_, .i32⟩
  | 111 => ⟨S32768, .i32⟩
  | 112 => ⟨S32768, .i1⟩
  | 113 => ⟨S_, .i32⟩
  | 114 => ⟨S32768, .i32⟩
  | 115 => ⟨S32768, .i32⟩
  | 116 => ⟨S32768, .i32⟩
  | 117 => ⟨S32768x1, .i32⟩
  | 118 => ⟨S32768x16, .f32⟩
  | 119 => ⟨S32768x1024, .f32⟩
  | 120 => ⟨S_, .i32⟩
  | 121 => ⟨S32768, .i32⟩
  | 122 => ⟨S32768, .i1⟩
  | 123 => ⟨S_, .i32⟩
  | 124 => ⟨S32768, .i32⟩
  | 125 => ⟨S32768, .i1⟩
  | 126 => ⟨S32768, .i1⟩
  | 127 => ⟨S32768x1, .i1⟩
  | _ => ⟨S8x4096, .i32⟩

abbrev hbmTy0_1 (i : Nat) : BufTy := match i % 128 with
  | 0 => ⟨S32768x1024, .i1⟩
  | 1 => ⟨S32768x1024, .f32⟩
  | 2 => ⟨S8x4096x1024, .f32⟩
  | _ => ⟨S8x4096, .i32⟩

abbrev hbmTy (i : Nat) : BufTy := match i / 128 with
  | 0 => hbmTy0_0 i
  | 1 => hbmTy0_1 i
  | _ => ⟨S8x4096, .i32⟩

abbrev bufTy : (tb : Table) → Fin (tcTables nBuf tb) → BufTy
  | .hbm, ⟨i, _⟩ => hbmTy i
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_c_1 : Ref sig .tc := ⟨.hbm, 18, rfl⟩
abbrev main_v2 : Ref sig .tc := ⟨.hbm, 19, rfl⟩
abbrev main_v3 : Ref sig .tc := ⟨.hbm, 20, rfl⟩
abbrev main_c_2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v13 : Ref sig .tc := ⟨.hbm, 36, rfl⟩
abbrev main_c_4 : Ref sig .tc := ⟨.hbm, 37, rfl⟩
abbrev main_v14 : Ref sig .tc := ⟨.hbm, 38, rfl⟩
abbrev main_v15 : Ref sig .tc := ⟨.hbm, 39, rfl⟩
abbrev main_c_5 : Ref sig .tc := ⟨.hbm, 40, rfl⟩
abbrev main_c_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v16 : Ref sig .tc := ⟨.hbm, 47, rfl⟩
abbrev main_c_7 : Ref sig .tc := ⟨.hbm, 48, rfl⟩
abbrev main_v17 : Ref sig .tc := ⟨.hbm, 49, rfl⟩
abbrev main_v18 : Ref sig .tc := ⟨.hbm, 50, rfl⟩
abbrev main_c_8 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_9 : Ref sig .tc := ⟨.hbm, 58, rfl⟩
abbrev main_v25 : Ref sig .tc := ⟨.hbm, 59, rfl⟩
abbrev main_v26 : Ref sig .tc := ⟨.hbm, 60, rfl⟩
abbrev main_c_10 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call3_v0 : Ref sig .tc := ⟨.hbm, 66, rfl⟩
abbrev main_v31 : Ref sig .tc := ⟨.hbm, 67, rfl⟩
abbrev main_c_11 : Ref sig .tc := ⟨.hbm, 68, rfl⟩
abbrev main_v32 : Ref sig .tc := ⟨.hbm, 69, rfl⟩
abbrev main_v33 : Ref sig .tc := ⟨.hbm, 70, rfl⟩
abbrev main_c_12 : Ref sig .tc := ⟨.hbm, 71, rfl⟩
abbrev main_c_13 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_v34 : Ref sig .tc := ⟨.hbm, 78, rfl⟩
abbrev main_c_14 : Ref sig .tc := ⟨.hbm, 79, rfl⟩
abbrev main_v35 : Ref sig .tc := ⟨.hbm, 80, rfl⟩
abbrev main_v36 : Ref sig .tc := ⟨.hbm, 81, rfl⟩
abbrev main_c_15 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_c_16 : Ref sig .tc := ⟨.hbm, 89, rfl⟩
abbrev main_v43 : Ref sig .tc := ⟨.hbm, 90, rfl⟩
abbrev main_v44 : Ref sig .tc := ⟨.hbm, 91, rfl⟩
abbrev main_c_17 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_call5_v0 : Ref sig .tc := ⟨.hbm, 97, rfl⟩
abbrev main_v49 : Ref sig .tc := ⟨.hbm, 98, rfl⟩
abbrev main_c_18 : Ref sig .tc := ⟨.hbm, 99, rfl⟩
abbrev main_v50 : Ref sig .tc := ⟨.hbm, 100, rfl⟩
abbrev main_v51 : Ref sig .tc := ⟨.hbm, 101, rfl⟩
abbrev main_c_19 : Ref sig .tc := ⟨.hbm, 102, rfl⟩
abbrev main_c_20 : Ref sig .tc := ⟨.hbm, 103, rfl⟩
abbrev main_call6_v0 : Ref sig .tc := ⟨.hbm, 104, rfl⟩
abbrev main_call6_v1 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_v52 : Ref sig .tc := ⟨.hbm, 109, rfl⟩
abbrev main_c_21 : Ref sig .tc := ⟨.hbm, 110, rfl⟩
abbrev main_v53 : Ref sig .tc := ⟨.hbm, 111, rfl⟩
abbrev main_v54 : Ref sig .tc := ⟨.hbm, 112, rfl⟩
abbrev main_c_22 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_23 : Ref sig .tc := ⟨.hbm, 120, rfl⟩
abbrev main_v61 : Ref sig .tc := ⟨.hbm, 121, rfl⟩
abbrev main_v62 : Ref sig .tc := ⟨.hbm, 122, rfl⟩
abbrev main_c_24 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_call7_v0 : Ref sig .tc := ⟨.hbm, 128, rfl⟩
abbrev main_v67 : Ref sig .tc := ⟨.hbm, 129, rfl⟩
abbrev main_v68 : Ref sig .tc := ⟨.hbm, 130, rfl⟩

abbrev nD : Nat := 1
abbrev τ : Topo := Topo.v7x

variable {F : FTy → Type} [FloatOps F]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1024_0_1 : S32768x1.BroadcastsInDim S32768x1024 (![0, 1] : Fin 2 → Fin S32768x1024.rank)
  bcast_S_S32768x1024 : S_.BroadcastsInDim S32768x1024 (![] : Fin 0 → Fin S32768x1024.rank)
  shapeCasts_S32768x1024_S8x4096x1024 : S32768x1024.ShapeCasts S8x4096x1024
  gather_S10000x1024_S32768x1_S32768x1024_1_0_n_n_0_1_11024_wf : GatherDims.WF S10000x1024 S32768x1 S32768x1024 [1] [0] [] [0] [] 1 ![1, 1024]
  dot_S32768x1024_S1024x1024_S32768x1024_1_1_0_0_n_n_wf : DotDims.WF S32768x1024 S1024x1024 S32768x1024 [1] [1] [0] [0] [] []
  gather_S50000x256_S32768x1_S32768x256_1_0_n_n_0_1_1256_wf : GatherDims.WF S50000x256 S32768x1 S32768x256 [1] [0] [] [0] [] 1 ![1, 256]
  dot_S32768x256_S256x1024_S32768x1024_1_0_0_1_n_n_wf : DotDims.WF S32768x256 S256x1024 S32768x1024 [1] [0] [0] [1] [] []
  gather_S130000x64_S32768x1_S32768x64_1_0_n_n_0_1_164_wf : GatherDims.WF S130000x64 S32768x1 S32768x64 [1] [0] [] [0] [] 1 ![1, 64]
  dot_S32768x64_S64x1024_S32768x1024_1_0_0_1_n_n_wf : DotDims.WF S32768x64 S64x1024 S32768x1024 [1] [0] [0] [1] [] []
  gather_S60000x16_S32768x1_S32768x16_1_0_n_n_0_1_116_wf : GatherDims.WF S60000x16 S32768x1 S32768x16 [1] [0] [] [0] [] 1 ![1, 16]
  dot_S32768x16_S16x1024_S32768x1024_1_0_0_1_n_n_wf : DotDims.WF S32768x16 S16x1024 S32768x1024 [1] [0] [0] [1] [] []

variable [Facts₀]

def gather_S10000x1024_S32768x1_S32768x1024_1_0_n_n_0_1_11024 : GatherDims S10000x1024 S32768x1 S32768x1024 where
  offsetDims := [1]
  collapsedSliceDims := [0]
  operandBatchingDims := []
  startIndicesBatchingDims := []
  startIndexMap := [0]
  indexVectorDim := 1
  sliceSizes := ![1, 1024]
  wf := gather_S10000x1024_S32768x1_S32768x1024_1_0_n_n_0_1_11024_wf
def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf
def gather_S50000x256_S32768x1_S32768x256_1_0_n_n_0_1_1256 : GatherDims S50000x256 S32768x1 S32768x256 where
  offsetDims := [1]
  collapsedSliceDims := [0]
  operandBatchingDims := []
  startIndicesBatchingDims := []
  startIndexMap := [0]
  indexVectorDim := 1
  sliceSizes := ![1, 256]
  wf := gather_S50000x256_S32768x1_S32768x256_1_0_n_n_0_1_1256_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def gather_S130000x64_S32768x1_S32768x64_1_0_n_n_0_1_164 : GatherDims S130000x64 S32768x1 S32768x64 where
  offsetDims := [1]
  collapsedSliceDims := [0]
  operandBatchingDims := []
  startIndicesBatchingDims := []
  startIndexMap := [0]
  indexVectorDim := 1
  sliceSizes := ![1, 64]
  wf := gather_S130000x64_S32768x1_S32768x64_1_0_n_n_0_1_164_wf
def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf
def gather_S60000x16_S32768x1_S32768x16_1_0_n_n_0_1_116 : GatherDims S60000x16 S32768x1 S32768x16 where
  offsetDims := [1]
  collapsedSliceDims := [0]
  operandBatchingDims := []
  startIndicesBatchingDims := []
  startIndexMap := [0]
  indexVectorDim := 1
  sliceSizes := ![1, 16]
  wf := gather_S60000x16_S32768x1_S32768x16_1_0_n_n_0_1_116_wf
def dot_S32768x16_S16x1024_S32768x1024_1_0_0_1_n_n : DotDims S32768x16 S16x1024 S32768x1024 where
  lhsContracting := [1]
  rhsContracting := [0]
  lhsNonContracting := [0]
  rhsNonContracting := [1]
  lhsBatch := []
  rhsBatch := []
  wf := dot_S32768x16_S16x1024_S32768x1024_1_0_0_1_n_n_wf

class Facts : Prop extends Facts₀ where

variable [Facts]
-- ==== Proof.LibBucketSum.lean ====
/-
  Bucketed sums on the extended reals: one-bit flags that select at most one of several dot products.

  A one-bit flag read as a number is `ind b`: 1 when the bit is set, 0 when it is clear (what an unsigned
  integer-to-float conversion of the bit gives on the extended reals).  A dot product whose left factor was first
  multiplied by the flag is the plain dot product when the flag is set and 0 when it is clear: `x · 1 = x`,
  `x · 0 = 0` and `0 · w = 0` hold for EVERY extended real, the infinities included, so no finiteness is needed.
  When the flags of four such terms are mutually exclusive, their sum is the chain of selects that starts from 0 and
  lets each set flag overwrite what came before (`combine4`): at most one term is not 0, and adding 0 changes
  nothing on the extended reals.  The flags themselves come from signed comparisons of a 32-bit word against
  thresholds: `slt_one_iff` and `range_one_iff` read them as inequalities between integers, and `range_disjoint`
  / `below_range_disjoint` say that half-open ranges that follow one another share no word.  `gated R b` is an array whose
  rows are multiplied by a column of flags in the host's spelling (the column converted to numbers, broadcast along the
  rows, multiplied in, the product narrowed to a shorter float format); `gated_apply` reads it at an index.
-/
import Idealize.ShloMosaic.PureOps.Ideal.Laws
import Idealize.ShloMosaic.Lib.ValueIdx
import Idealize.ShloMosaic.Lib.Pipeline.Value

noncomputable section

open scoped BigOperators

namespace Cert.BucketSum

open Idealize.ShloMosaic

/-- A one-bit flag as an extended real: 1 when set, 0 when clear. -/
def ind (b : BitVec 1) : EReal := ((b.toNat : ℝ) : EReal)

theorem ind_zero : ind 0#1 = 0 := by simp [ind]
theorem ind_one : ind 1#1 = 1 := by simp [ind]

/-- The unsigned conversion of a one-bit word to a float, on the extended reals, is `ind`. -/
theorem uitofp_bit (b : BitVec 1) : (FloatOps.uitofp (F := Ideal) .f32 b : Ideal .f32) = ind b := rfl

theorem select_zero {α : Type} (a b : α) : Scalar.select 0#1 a b = b := if_neg (by decide)
theorem select_one {α : Type} (a b : α) : Scalar.select 1#1 a b = a := if_pos rfl

/-- A dot product whose left factor carries the flag: the plain dot product when the flag is set, 0 when clear. -/
theorem gated_sum {K : ℕ} (r w : Fin K → EReal) (b : BitVec 1) :
    ∑ k : Fin K, (r k * ind b) * w k = Scalar.select b (∑ k : Fin K, r k * w k) 0 := by
  rcases BitVec.eq_zero_or_eq_one b with rfl | rfl
  · rw [select_zero, ind_zero]
    simp only [mul_zero, zero_mul, Finset.sum_const_zero]
  · rw [select_one, ind_one]
    simp only [mul_one]

/-- Four gated terms with mutually exclusive flags add up to the chain of selects from 0. -/
theorem combine4 (s0 s1 s2 s3 : EReal) (b0 b1 b2 b3 : BitVec 1)
    (h10 : b1 = 1#1 → b0 = 0#1) (h20 : b2 = 1#1 → b0 = 0#1) (h21 : b2 = 1#1 → b1 = 0#1)
    (h30 : b3 = 1#1 → b0 = 0#1) (h31 : b3 = 1#1 → b1 = 0#1) (h32 : b3 = 1#1 → b2 = 0#1) :
    ((Scalar.select b0 s0 0 + Scalar.select b1 s1 0) + Scalar.select b2 s2 0) + Scalar.select b3 s3 0
      = Scalar.select b3 s3 (Scalar.select b2 s2 (Scalar.select b1 s1 (Scalar.select b0 s0 (0 : EReal)))) := by
  rcases BitVec.eq_zero_or_eq_one b3 with rfl | rfl
  · rcases BitVec.eq_zero_or_eq_one b2 with rfl | rfl
    · rcases BitVec.eq_zero_or_eq_one b1 with rfl | rfl
      · simp only [select_zero, add_zero]
      · obtain rfl := h10 rfl
        simp only [select_zero, select_one, add_zero, zero_add]
    · obtain rfl := h21 rfl
      obtain rfl := h20 rfl
      simp only [select_zero, select_one, add_zero, zero_add]
  · obtain rfl := h32 rfl
    obtain rfl := h31 rfl
    obtain rfl := h30 rfl
    simp only [select_zero, select_one, add_zero, zero_add]

/-! ## Rows multiplied by a column of flags -/

section Gated
open Idealize.ShloMosaic.ValueIdx

/-- The rows of `R` multiplied by the flags of the one-column array `b`, narrowed to bf16: the host's spelling. -/
def gated {F : FTy → Type} [FloatOps F] {N H : ℕ} (R : FVec F ⟨2, ![N, H]⟩ .f32) (b : IVec ⟨2, ![N, 1]⟩ 1)
    (h : (⟨2, ![N, 1]⟩ : Shape).BroadcastsInDim ⟨2, ![N, H]⟩ ![0, 1]) : FVec F ⟨2, ![N, H]⟩ .bf16 :=
  truncf .bf16 (mulf R (broadcastInDim ⟨2, ![N, H]⟩ ![0, 1] h (uitofp .f32 b))) (by decide)

/-- On the extended reals entry `(n, k)` of the gated array is the entry of `R` times row `n`'s flag. -/
theorem gated_apply {N H : ℕ} (R : FVec Ideal ⟨2, ![N, H]⟩ .f32) (b : IVec ⟨2, ![N, 1]⟩ 1)
    (h : (⟨2, ![N, 1]⟩ : Shape).BroadcastsInDim ⟨2, ![N, H]⟩ ![0, 1]) (n : Fin N) (k : Fin H) :
    (gated (F := Ideal) R b h (ix2 n k) : EReal) = R (ix2 n k) * ind (b (ix2 n (0 : Fin 1))) := by
  show R (ix2 n k) * broadcastInDim ⟨2, ![N, H]⟩ ![0, 1] h (uitofp (F := Ideal) .f32 b) (ix2 n k) = _
  rw [broadcastInDim_apply ![0, 1] h _ (ix2 n k) (ix2 n (0 : Fin 1)) (fun a => by
    match a with
    | ⟨0, _⟩ =>
      show n.val = if N = 1 then 0 else n.val
      split
      · have := n.isLt; omega
      · rfl
    | ⟨1, _⟩ => rfl)]
  rfl

end Gated

/-! ## Flags from signed comparisons against thresholds -/

theorem ofBool_eq_one_iff (p : Bool) : BitVec.ofBool p = 1#1 ↔ p = true := by
  cases p <;> decide

/-- "word below threshold", as a flag, is set exactly when the integers compare so. -/
theorem slt_one_iff (t a : BitVec 32) : IntOp.cmpi .slt t a = 1#1 ↔ t.toInt < a.toInt := by
  show BitVec.ofBool (t.slt a) = 1#1 ↔ _
  rw [ofBool_eq_one_iff]
  exact BitVec.slt_iff_toInt_lt

/-- "threshold ≤ word < threshold", as the conjunction of two flags, is set exactly when both inequalities hold. -/
theorem range_one_iff (t a b : BitVec 32) :
    IntOp.andi (IntOp.cmpi .sge t a) (IntOp.cmpi .slt t b) = 1#1 ↔ a.toInt ≤ t.toInt ∧ t.toInt < b.toInt := by
  show BitVec.ofBool (a.sle t) &&& BitVec.ofBool (t.slt b) = 1#1 ↔ _
  rw [← BitVec.sle_iff_toInt_le, ← BitVec.slt_iff_toInt_lt]
  cases a.sle t <;> cases t.slt b <;> decide

/-- A flag that is not set is clear. -/
theorem eq_zero_of_not_one {b : BitVec 1} (h : ¬ b = 1#1) : b = 0#1 := by
  rcases BitVec.eq_zero_or_eq_one b with h0 | h1
  · exact h0
  · exact absurd h1 h

/-- A later range's flag excludes an earlier range's: the later one starts at or after the earlier one's end. -/
theorem range_disjoint (t a b a' b' : BitVec 32) (hle : b.toInt ≤ a'.toInt)
    (h : IntOp.andi (IntOp.cmpi .sge t a') (IntOp.cmpi .slt t b') = 1#1) :
    IntOp.andi (IntOp.cmpi .sge t a) (IntOp.cmpi .slt t b) = 0#1 := by
  refine eq_zero_of_not_one fun h' => ?_
  have h1 := (range_one_iff t a' b').mp h
  have h2 := (range_one_iff t a b).mp h'
  omega

/-- A range's flag excludes the "below the first threshold" flag when the range starts at or after it. -/
theorem below_range_disjoint (t b a' b' : BitVec 32) (hle : b.toInt ≤ a'.toInt)
    (h : IntOp.andi (IntOp.cmpi .sge t a') (IntOp.cmpi .slt t b') = 1#1) :
    IntOp.cmpi .slt t b = 0#1 := by
  refine eq_zero_of_not_one fun h' => ?_
  have h1 := (range_one_iff t a' b').mp h
  have h2 := (slt_one_iff t b).mp h'
  omega

end Cert.BucketSum

end
-- ==== Proof.Staged.lean ====
/-
  The arrays the kernel's windows stage, as the host operations before the region leave them.

  Each left operand is the gathered rows of one table with every row multiplied by its bucket's flag (the flag column
  converted to a number and broadcast along the row), narrowed to the matrix unit's format; each right operand is the
  narrowed weight, the head's transposed first.  The gathered rows and the flag columns are spelt with the reference's own
  stage functions of the token array and the tables: both programs compute them by the same operations.
-/
import proofs.«166075_j43550968381892_1_alg».proof.Proof.Gen.KernelIdeal.Frame
import proofs.«166075_j43550968381892_1_alg».proof.Proof.Gen.ReferenceIdeal.Read
import proofs.«166075_j43550968381892_1_alg».proof.Proof.LibBucketSum
import Idealize.ShloMosaic.Lib.StableHlo.Run

set_option maxRecDepth 16384

noncomputable section

namespace Cert.KernelIdeal.Staged

open Cert.KernelIdeal Cert.KernelIdeal.Gen Idealize.ShloMosaic Idealize.ShloMosaic.TcCoe Idealize.SL.Sem Idealize.ShloMosaic.StableHlo
open Cert.ReferenceIdeal.Read (val_main_v8 val_main_v12 val_main_v23 val_main_v30 val_main_v41 val_main_v48 val_main_v59 val_main_v66)
open Cert.BucketSum (gated)

variable {F : FTy → Type} [FloatOps F]
variable (m : (ℓ : Loc nD τ sig) → Buf (Elt F) ℓ)

set_option maxHeartbeats 4000000 in
/-- The head's rows, gated by "token below 10000". -/
theorem V_v72 (c : Dev nD) :
    (V m c main_v72 : S32768x1024.Idx → Elt F .bf16) = gated (val_main_v8 (m ((c : Thread nD τ).loc main_arg0)) (m ((c : Thread nD τ).loc main_arg1)))
      (val_main_v12 (m ((c : Thread nD τ).loc main_arg0))) bcast_S32768x1_S32768x1024_0_1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- The head's weight, transposed and narrowed. -/
theorem V_v74 (c : Dev nD) :
    (V m c main_v74 : S1024x1024.Idx → Elt F .bf16) = truncf .bf16 (transpose S1024x1024 [1, 0] (m ((c : Thread nD τ).loc main_arg2)) transposes_S1024x1024_S1024x1024_1_0) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp

set_option maxHeartbeats 4000000 in
/-- The first tail's rows, gated by "10000 ≤ token < 60000". -/
theorem V_v75 (c : Dev nD) :
    (V m c main_v75 : S32768x256.Idx → Elt F .bf16) = gated (val_main_v23 (m ((c : Thread nD τ).loc main_arg0)) (m ((c : Thread nD τ).loc main_arg3)))
      (val_main_v30 (m ((c : Thread nD τ).loc main_arg0))) bcast_S32768x1_S32768x256_0_1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- The first tail's weight, narrowed. -/
theorem V_v76 (c : Dev nD) :
    (V m c main_v76 : S256x1024.Idx → Elt F .bf16) = truncf .bf16 (m ((c : Thread nD τ).loc main_arg4)) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp

set_option maxHeartbeats 4000000 in
/-- The second tail's rows, gated by "60000 ≤ token < 190000". -/
theorem V_v77 (c : Dev nD) :
    (V m c main_v77 : S32768x64.Idx → Elt F .bf16) = gated (val_main_v41 (m ((c : Thread nD τ).loc main_arg0)) (m ((c : Thread nD τ).loc main_arg5)))
      (val_main_v48 (m ((c : Thread nD τ).loc main_arg0))) bcast_S32768x1_S32768x64_0_1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- The second tail's weight, narrowed. -/
theorem V_v78 (c : Dev nD) :
    (V m c main_v78 : S64x1024.Idx → Elt F .bf16) = truncf .bf16 (m ((c : Thread nD τ).loc main_arg6)) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp

set_option maxHeartbeats 4000000 in
/-- The third tail's rows, gated by "190000 ≤ token < 250000". -/
theorem V_v79 (c : Dev nD) :
    (V m c main_v79 : S32768x16.Idx → Elt F .bf16) = gated (val_main_v59 (m ((c : Thread nD τ).loc main_arg0)) (m ((c : Thread nD τ).loc main_arg7)))
      (val_main_v66 (m ((c : Thread nD τ).loc main_arg0))) bcast_S32768x1_S32768x16_0_1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- The third tail's weight, narrowed. -/
theorem V_v80 (c : Dev nD) :
    (V m c main_v80 : S16x1024.Idx → Elt F .bf16) = truncf .bf16 (m ((c : Thread nD τ).loc main_arg8)) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp

end Cert.KernelIdeal.Staged

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«166075_j43550968381892_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.RefValue.lean ====
/-
  The reference's result before its final reshape, read at a token `n` and an output feature `q`.

  It is a chain of selects: starting from 0, the head's projection is taken where the head's flag is set, and each tail's
  projection overwrites what came before where that tail's flag is set.  Each projection is a sum over the hidden index of
  a gathered row times a weight (the head's weight read transposed).  The flags are the signed comparisons of the token
  against the bucket boundaries 10000, 60000, 190000, 250000; the ranges follow one another, so at most one flag is set.
-/
import proofs.«166075_j43550968381892_1_alg».proof.Proof.Gen.ReferenceIdeal.Read
import proofs.«166075_j43550968381892_1_alg».proof.Proof.LibDense
import proofs.«166075_j43550968381892_1_alg».proof.Proof.LibHostLayout
import proofs.«166075_j43550968381892_1_alg».proof.Proof.LibBucketSum

noncomputable section

open scoped BigOperators

namespace Cert.ReferenceIdeal.RefValue

open Cert.ReferenceIdeal Cert.ReferenceIdeal.Read Idealize.ShloMosaic Idealize.ShloMosaic.ValueIdx
open Cert.Dense Cert.HostLayout Cert.BucketSum

variable (x0 : (⟨S8x4096, .i32⟩ : BufTy).Contents (Elt Ideal))

/-- Token `n` of the flattened token array. -/
abbrev tok (n : Fin 32768) : BitVec 32 := val_main_v0 (F := Ideal) x0 (ix1 n)

/-- The head's flag: the token is below 10000. -/
theorem flag0 (n : Fin 32768) :
    val_main_v12 (F := Ideal) x0 (ix2 n (0 : Fin 1)) = IntOp.cmpi .slt (tok x0 n) 10000#32 := by
  unfold val_main_v12
  rw [bcast_vec_col, val_main_v11_apply, val_main_v10_apply, val_main_c_3_apply]

/-- The first tail's flag: 10000 ≤ token < 60000. -/
theorem flag1 (n : Fin 32768) :
    val_main_v30 (F := Ideal) x0 (ix2 n (0 : Fin 1))
      = IntOp.andi (IntOp.cmpi .sge (tok x0 n) 10000#32) (IntOp.cmpi .slt (tok x0 n) 60000#32) := by
  unfold val_main_v30
  rw [bcast_vec_col, val_main_v29_apply, val_main_v26_apply, val_main_v28_apply, val_main_v25_apply, val_main_c_9_apply,
    val_main_v27_apply, val_main_c_10_apply]

/-- The second tail's flag: 60000 ≤ token < 190000. -/
theorem flag2 (n : Fin 32768) :
    val_main_v48 (F := Ideal) x0 (ix2 n (0 : Fin 1))
      = IntOp.andi (IntOp.cmpi .sge (tok x0 n) 60000#32) (IntOp.cmpi .slt (tok x0 n) 190000#32) := by
  unfold val_main_v48
  rw [bcast_vec_col, val_main_v47_apply, val_main_v44_apply, val_main_v46_apply, val_main_v43_apply, val_main_c_16_apply,
    val_main_v45_apply, val_main_c_17_apply]

/-- The third tail's flag: 190000 ≤ token < 250000. -/
theorem flag3 (n : Fin 32768) :
    val_main_v66 (F := Ideal) x0 (ix2 n (0 : Fin 1))
      = IntOp.andi (IntOp.cmpi .sge (tok x0 n) 190000#32) (IntOp.cmpi .slt (tok x0 n) 250000#32) := by
  unfold val_main_v66
  rw [bcast_vec_col, val_main_v65_apply, val_main_v62_apply, val_main_v64_apply, val_main_v61_apply, val_main_c_23_apply,
    val_main_v63_apply, val_main_c_24_apply]

/-- The buckets follow one another: a later flag that is set leaves every earlier one clear. -/
theorem flags_exclusive (n : Fin 32768) :
    (val_main_v30 (F := Ideal) x0 (ix2 n (0 : Fin 1)) = 1#1 → val_main_v12 (F := Ideal) x0 (ix2 n (0 : Fin 1)) = 0#1)
    ∧ (val_main_v48 (F := Ideal) x0 (ix2 n (0 : Fin 1)) = 1#1 → val_main_v12 (F := Ideal) x0 (ix2 n (0 : Fin 1)) = 0#1)
    ∧ (val_main_v48 (F := Ideal) x0 (ix2 n (0 : Fin 1)) = 1#1 → val_main_v30 (F := Ideal) x0 (ix2 n (0 : Fin 1)) = 0#1)
    ∧ (val_main_v66 (F := Ideal) x0 (ix2 n (0 : Fin 1)) = 1#1 → val_main_v12 (F := Ideal) x0 (ix2 n (0 : Fin 1)) = 0#1)
    ∧ (val_main_v66 (F := Ideal) x0 (ix2 n (0 : Fin 1)) = 1#1 → val_main_v30 (F := Ideal) x0 (ix2 n (0 : Fin 1)) = 0#1)
    ∧ (val_main_v66 (F := Ideal) x0 (ix2 n (0 : Fin 1)) = 1#1 → val_main_v48 (F := Ideal) x0 (ix2 n (0 : Fin 1)) = 0#1) := by
  rw [flag0, flag1, flag2, flag3]
  exact ⟨below_range_disjoint _ _ _ _ (by decide), below_range_disjoint _ _ _ _ (by decide),
    range_disjoint _ _ _ _ _ (by decide), below_range_disjoint _ _ _ _ (by decide),
    range_disjoint _ _ _ _ _ (by decide), range_disjoint _ _ _ _ _ (by decide)⟩

variable (x1 : (⟨S10000x1024, .f32⟩ : BufTy).Contents (Elt Ideal)) (x2 : (⟨S1024x1024, .f32⟩ : BufTy).Contents (Elt Ideal))
  (x3 : (⟨S50000x256, .f32⟩ : BufTy).Contents (Elt Ideal)) (x4 : (⟨S256x1024, .f32⟩ : BufTy).Contents (Elt Ideal))
  (x5 : (⟨S130000x64, .f32⟩ : BufTy).Contents (Elt Ideal)) (x6 : (⟨S64x1024, .f32⟩ : BufTy).Contents (Elt Ideal))
  (x7 : (⟨S60000x16, .f32⟩ : BufTy).Contents (Elt Ideal)) (x8 : (⟨S16x1024, .f32⟩ : BufTy).Contents (Elt Ideal))

/-- The reference's array at `(n, q)`: the chain of selects over the four projections. -/
theorem ref_at (n : Fin 32768) (q : Fin 1024) :
    val_main_v67 (F := Ideal) x0 x1 x2 x3 x4 x5 x6 x7 x8 (ix2 n q)
      = Scalar.select (val_main_v66 (F := Ideal) x0 (ix2 n (0 : Fin 1)))
          (∑ k : Fin 16, val_main_v59 (F := Ideal) x0 x7 (ix2 n k) * x8 (ix2 k q))
        (Scalar.select (val_main_v48 (F := Ideal) x0 (ix2 n (0 : Fin 1)))
          (∑ k : Fin 64, val_main_v41 (F := Ideal) x0 x5 (ix2 n k) * x6 (ix2 k q))
        (Scalar.select (val_main_v30 (F := Ideal) x0 (ix2 n (0 : Fin 1)))
          (∑ k : Fin 256, val_main_v23 (F := Ideal) x0 x3 (ix2 n k) * x4 (ix2 k q))
        (Scalar.select (val_main_v12 (F := Ideal) x0 (ix2 n (0 : Fin 1)))
          (∑ k : Fin 1024, val_main_v8 (F := Ideal) x0 x1 (ix2 n k) * x2 (ix2 q k)) (0 : EReal)))) := by
  unfold val_main_v67 val_main_v49 val_main_v31 val_main_v13 val_main_call7_v0 val_main_call5_v0 val_main_call3_v0
    val_main_call1_v1 val_main_call1_v2 val_main_call1_v0 val_main_cst val_main_v60 val_main_v42 val_main_v24 val_main_v9
  simp only [select_apply]
  rw [bcast_col_mat, bcast_col_mat, bcast_col_mat, bcast_col_mat, bcast_scalar_mat,
    hostDot_eq_mm _ rfl rfl rfl rfl rfl rfl, hostDot_eq_mm _ rfl rfl rfl rfl rfl rfl, hostDot_eq_mm _ rfl rfl rfl rfl rfl rfl,
    mm_apply, mm_apply, mm_apply, hostDot_abT _ rfl rfl rfl rfl rfl rfl]
  show Scalar.select _ _ (Scalar.select _ _ (Scalar.select _ _ (Scalar.select _ _ (Ideal.ofBits .f32 0x00000000#32)))) = _
  rw [Ideal.ofBits_zero_f32]

end Cert.ReferenceIdeal.RefValue

end
-- ==== Proof.Bridge.lean ====
/-
  The law that joins the two programs, at a token `n` and an output feature `q`.

  The kernel adds four dot products whose left rows were first multiplied by their bucket's flag; the reference starts
  from 0 and lets each bucket whose flag is set overwrite the value with that bucket's plain dot product.  A gated dot
  product is the plain one when its flag is set and 0 when it is clear, and the four flags exclude one another (the
  buckets are consecutive ranges of the token), so the sum has at most one term that is not 0 and equals the chain of
  selects.  Nothing here needs the entries to be finite.
-/
import proofs.«166075_j43550968381892_1_alg».proof.Proof.RefValue

noncomputable section

open scoped BigOperators

namespace Cert.ReferenceIdeal.RefValue

open Cert.ReferenceIdeal Cert.ReferenceIdeal.Read Idealize.ShloMosaic Idealize.ShloMosaic.ValueIdx
open Cert.BucketSum

variable (x0 : (⟨S8x4096, .i32⟩ : BufTy).Contents (Elt Ideal))
  (x1 : (⟨S10000x1024, .f32⟩ : BufTy).Contents (Elt Ideal)) (x2 : (⟨S1024x1024, .f32⟩ : BufTy).Contents (Elt Ideal))
  (x3 : (⟨S50000x256, .f32⟩ : BufTy).Contents (Elt Ideal)) (x4 : (⟨S256x1024, .f32⟩ : BufTy).Contents (Elt Ideal))
  (x5 : (⟨S130000x64, .f32⟩ : BufTy).Contents (Elt Ideal)) (x6 : (⟨S64x1024, .f32⟩ : BufTy).Contents (Elt Ideal))
  (x7 : (⟨S60000x16, .f32⟩ : BufTy).Contents (Elt Ideal)) (x8 : (⟨S16x1024, .f32⟩ : BufTy).Contents (Elt Ideal))

/-- The sum of the four gated projections is the reference's chain of selects. -/
theorem gated_sums_eq_ref (n : Fin 32768) (q : Fin 1024) :
    (((∑ k : Fin 1024, (val_main_v8 (F := Ideal) x0 x1 (ix2 n k) * ind (val_main_v12 (F := Ideal) x0 (ix2 n (0 : Fin 1)))) * x2 (ix2 q k))
      + ∑ k : Fin 256, (val_main_v23 (F := Ideal) x0 x3 (ix2 n k) * ind (val_main_v30 (F := Ideal) x0 (ix2 n (0 : Fin 1)))) * x4 (ix2 k q))
      + ∑ k : Fin 64, (val_main_v41 (F := Ideal) x0 x5 (ix2 n k) * ind (val_main_v48 (F := Ideal) x0 (ix2 n (0 : Fin 1)))) * x6 (ix2 k q))
      + ∑ k : Fin 16, (val_main_v59 (F := Ideal) x0 x7 (ix2 n k) * ind (val_main_v66 (F := Ideal) x0 (ix2 n (0 : Fin 1)))) * x8 (ix2 k q)
      = val_main_v67 (F := Ideal) x0 x1 x2 x3 x4 x5 x6 x7 x8 (ix2 n q) := by
  rw [ref_at,
    gated_sum (fun k : Fin 1024 => val_main_v8 (F := Ideal) x0 x1 (ix2 n k)) (fun k => x2 (ix2 q k)),
    gated_sum (fun k : Fin 256 => val_main_v23 (F := Ideal) x0 x3 (ix2 n k)) (fun k => x4 (ix2 k q)),
    gated_sum (fun k : Fin 64 => val_main_v41 (F := Ideal) x0 x5 (ix2 n k)) (fun k => x6 (ix2 k q)),
    gated_sum (fun k : Fin 16 => val_main_v59 (F := Ideal) x0 x7 (ix2 n k)) (fun k => x8 (ix2 k q))]
  obtain ⟨h10, h20, h21, h30, h31, h32⟩ := flags_exclusive x0 n
  exact combine4 _ _ _ _ _ _ _ _ h10 h20 h21 h30 h31 h32

end Cert.ReferenceIdeal.RefValue

end
-- ==== Proof.KernelBlock.lean ====
/-
  The kernel's result array, block by block.

  Grid point `t` stages rows `1024·t … 1024·t + 1023` of the four gated row arrays, the four weights whole, and writes the
  same rows of the result.  Entry `(p, q)` of what it writes is the sum of four dot products of row `p` of each staged
  left block with column `q` of its weight; row `p` of a left block is row `n = 1024·t + p` of the whole gated array, so
  the entry is the sum of the four gated projections of token `n`, which is the reference's chain of selects at `(n, q)`
  (`gated_sums_eq_ref`).  The 32 blocks tile the array, so it ends holding that function everywhere.
-/
import proofs.«166075_j43550968381892_1_alg».proof.Proof.Gen.KernelIdeal.Frame
import proofs.«166075_j43550968381892_1_alg».proof.Proof.Staged
import proofs.«166075_j43550968381892_1_alg».proof.Proof.Bridge
import proofs.«166075_j43550968381892_1_alg».proof.Proof.LibDense
import Idealize.ShloMosaic.Lib.Pipeline.Value
import Idealize.ShloMosaic.Lib.StableHlo.Run

set_option maxRecDepth 16384

noncomputable section

open scoped BigOperators

namespace Cert.KernelIdeal.Block

open Cert.KernelIdeal Cert.KernelIdeal.Gen Idealize.ShloMosaic Idealize.ShloMosaic.TcCoe Idealize.SL.Sem Idealize.ShloMosaic.ValueIdx
open Idealize.ShloMosaic.Pipeline (Dat)
open Cert.Dense Cert.BucketSum
open Cert.ReferenceIdeal.Read (val_main_v8 val_main_v12 val_main_v23 val_main_v30 val_main_v41 val_main_v48 val_main_v59 val_main_v66 val_main_v67)

/-! ## The body's value at an entry -/

/-- The stored value at `(p, q)`: four matrix products into zero accumulators, added left to right. -/
theorem pay_apply (v0 : FVec Ideal S1024x1024 .bf16) (v2 : FVec Ideal S1024x1024 .bf16) (v5 : FVec Ideal S1024x256 .bf16)
    (v7 : FVec Ideal S256x1024 .bf16) (v11 : FVec Ideal S1024x64 .bf16) (v13 : FVec Ideal S64x1024 .bf16)
    (v17 : FVec Ideal S1024x16 .bf16) (v19 : FVec Ideal S16x1024 .bf16) (p q : Fin 1024) :
    (k0_pay1 (F := Ideal) v0 v2 v5 v7 v11 v13 v17 v19 (ix2 p q) : EReal)
      = ((mm v0 v2 (ix2 p q) + mm v5 v7 (ix2 p q)) + mm v11 v13 (ix2 p q)) + mm v17 v19 (ix2 p q) := by
  unfold k0_pay1
  simp only [shapeCast_self]
  rw [matmul_zero_eq_mm _ rfl rfl rfl rfl rfl rfl, matmul_zero_eq_mm _ rfl rfl rfl rfl rfl rfl,
    matmul_zero_eq_mm _ rfl rfl rfl rfl rfl rfl, matmul_zero_eq_mm _ rfl rfl rfl rfl rfl rfl]
  rfl

/-- One block's entry against the whole arrays: when row `p` of each left block is row `n` of its whole array and the
    right blocks are the whole weights, the entry is the sum of the four dot products of the whole arrays. -/
theorem block_at (v0 : FVec Ideal S1024x1024 .bf16) (v2 : FVec Ideal S1024x1024 .bf16) (v5 : FVec Ideal S1024x256 .bf16)
    (v7 : FVec Ideal S256x1024 .bf16) (v11 : FVec Ideal S1024x64 .bf16) (v13 : FVec Ideal S64x1024 .bf16)
    (v17 : FVec Ideal S1024x16 .bf16) (v19 : FVec Ideal S16x1024 .bf16)
    (a0 : S32768x1024.Idx → EReal) (b0 : S1024x1024.Idx → EReal) (a1 : S32768x256.Idx → EReal) (b1 : S256x1024.Idx → EReal)
    (a2 : S32768x64.Idx → EReal) (b2 : S64x1024.Idx → EReal) (a3 : S32768x16.Idx → EReal) (b3 : S16x1024.Idx → EReal)
    (n : Fin 32768) (p q : Fin 1024)
    (h0 : ∀ k, v0 (ix2 p k) = a0 (ix2 n k)) (g0 : ∀ k, v2 (ix2 k q) = b0 (ix2 k q))
    (h1 : ∀ k, v5 (ix2 p k) = a1 (ix2 n k)) (g1 : ∀ k, v7 (ix2 k q) = b1 (ix2 k q))
    (h2 : ∀ k, v11 (ix2 p k) = a2 (ix2 n k)) (g2 : ∀ k, v13 (ix2 k q) = b2 (ix2 k q))
    (h3 : ∀ k, v17 (ix2 p k) = a3 (ix2 n k)) (g3 : ∀ k, v19 (ix2 k q) = b3 (ix2 k q)) :
    (k0_pay1 (F := Ideal) v0 v2 v5 v7 v11 v13 v17 v19 (ix2 p q) : EReal)
      = (((∑ k : Fin 1024, a0 (ix2 n k) * b0 (ix2 k q)) + ∑ k : Fin 256, a1 (ix2 n k) * b1 (ix2 k q))
          + ∑ k : Fin 64, a2 (ix2 n k) * b2 (ix2 k q)) + ∑ k : Fin 16, a3 (ix2 n k) * b3 (ix2 k q) := by
  rw [pay_apply]
  simp only [mm_apply, h0, g0, h1, g1, h2, g2, h3, g3]

/-- The head's weight transposed, at `(k, q)`, is the weight at `(q, k)`. -/
theorem headW_apply (x2 : FVec Ideal S1024x1024 .f32) (k q : Fin 1024) :
    (transpose S1024x1024 [1, 0] x2 transposes_S1024x1024_S1024x1024_1_0 (ix2 k q) : EReal) = x2 (ix2 q k) := by
  exact transpose_apply [1, 0] x2 transposes_S1024x1024_S1024x1024_1_0 (ix2 k q) (ix2 q k) (fun b => by
    match b with
    | ⟨0, _⟩ => rfl
    | ⟨1, _⟩ => rfl)

/-! ## The blocks the windows stage -/

variable (m : (ℓ : Loc nD τ sig) → Buf (Elt Ideal) ℓ) (ρ : Dev nD → PrngReg)

theorem lt32 (t : Fin cfg0.N) : t.val < 32 :=
  lt_of_lt_of_eq t.isLt (show cfg0.N = 32 from N_0)

/-- Row `p` of grid point `t`'s block is row `1024·t + p` of the array. -/
def row (t : Fin cfg0.N) (p : Fin 1024) : Fin 32768 := ⟨1024 * t.val + p.val, by have := lt32 t; have := p.isLt; omega⟩

/-- The printed index maps over the grid: the row windows and the output move down one block per point. -/
theorem idx_rows : ∀ t : Fin cfg0.N, (win0_0.index t (0 : Fin 2) = t.val ∧ win0_0.index t (1 : Fin 2) = 0)
    ∧ (win0_2.index t (0 : Fin 2) = t.val ∧ win0_2.index t (1 : Fin 2) = 0)
    ∧ (win0_4.index t (0 : Fin 2) = t.val ∧ win0_4.index t (1 : Fin 2) = 0)
    ∧ (win0_6.index t (0 : Fin 2) = t.val ∧ win0_6.index t (1 : Fin 2) = 0)
    ∧ (win0_8.index t (0 : Fin 2) = t.val ∧ win0_8.index t (1 : Fin 2) = 0) :=
  (by decide +kernel : ∀ t : Fin grid0.N, _)

/-- The weight windows stay on their one block. -/
theorem idx_whole : ∀ t : Fin cfg0.N, (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0) :=
  (by decide +kernel : ∀ t : Fin grid0.N, _)

theorem iblk0_apply (c : Dev nD) (t : Fin cfg0.N) (p k : Fin 1024) :
    ((iblk m c 0 t : FVec Ideal S1024x1024 .bf16) (ix2 p k) : EReal) = (V m c main_v72 : S32768x1024.Idx → EReal) (ix2 (row t p) k) := by
  obtain ⟨⟨e0, e1⟩, -⟩ := idx_rows t
  unfold iblk
  rw [View.read_apply]
  show V m c main_v72 _ = V m c main_v72 _
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 1024 + 1 * k.val = k.val; rw [e1]; omega

theorem iblk2_apply (c : Dev nD) (t : Fin cfg0.N) (p : Fin 1024) (k : Fin 256) :
    ((iblk m c 2 t : FVec Ideal S1024x256 .bf16) (ix2 p k) : EReal) = (V m c main_v75 : S32768x256.Idx → EReal) (ix2 (row t p) k) := by
  obtain ⟨-, ⟨e0, e1⟩, -⟩ := idx_rows t
  unfold iblk
  rw [View.read_apply]
  show V m c main_v75 _ = V m c main_v75 _
  congr 1
  funext a
  apply Fin.ext
  match a with
  | ⟨0, _⟩ => show win0_2.index t (0 : Fin 2) * 1024 + 1 * p.val = 1024 * t.val + p.val; rw [e0]; omega
  | ⟨1, _⟩ => show win0_2.index t (1 : Fin 2) * 256 + 1 * k.val = k.val; rw [e1]; omega

theorem iblk4_apply (c : Dev nD) (t : Fin cfg0.N) (p : Fin 1024) (k : Fin 64) :
    ((iblk m c 4 t : FVec Ideal S1024x64 .bf16) (ix2 p k) : EReal) = (V m c main_v77 : S32768x64.Idx → EReal) (ix2 (row t p) k) := by
  obtain ⟨-, -, ⟨e0, e1⟩, -⟩ := idx_rows t
  unfold iblk
  rw [View.read_apply]
  show V m c main_v77 _ = V m c main_v77 _
  congr 1
  funext a
  apply Fin.ext
  match a with
  | ⟨0, _⟩ => show win0_4.index t (0 : Fin 2) * 1024 + 1 * p.val = 1024 * t.val + p.val; rw [e0]; omega
  | ⟨1, _⟩ => show win0_4.index t (1 : Fin 2) * 64 + 1 * k.val = k.val; rw [e1]; omega

theorem iblk6_apply (c : Dev nD) (t : Fin cfg0.N) (p : Fin 1024) (k : Fin 16) :
    ((iblk m c 6 t : FVec Ideal S1024x16 .bf16) (ix2 p k) : EReal) = (V m c main_v79 : S32768x16.Idx → EReal) (ix2 (row t p) k) := by
  obtain ⟨-, -, -, ⟨e0, e1⟩, -⟩ := idx_rows t
  unfold iblk
  rw [View.read_apply]
  show V m c main_v79 _ = V m c main_v79 _
  congr 1
  funext a
  apply Fin.ext
  match a with
  | ⟨0, _⟩ => show win0_6.index t (0 : Fin 2) * 1024 + 1 * p.val = 1024 * t.val + p.val; rw [e0]; omega
  | ⟨1, _⟩ => show win0_6.index t (1 : Fin 2) * 16 + 1 * k.val = k.val; rw [e1]; omega

theorem iblk1_apply (c : Dev nD) (t : Fin cfg0.N) (k q : Fin 1024) :
    ((iblk m c 1 t : FVec Ideal S1024x1024 .bf16) (ix2 k q) : EReal) = (V m c main_v74 : S1024x1024.Idx → EReal) (ix2 k q) := by
  obtain ⟨⟨e0, e1⟩, -⟩ := idx_whole t
  unfold iblk
  rw [View.read_apply]
  show V m c main_v74 _ = V m c main_v74 _
  congr 1
  funext a
  apply Fin.ext
  match a with
  | ⟨0, _⟩ => show win0_1.index t (0 : Fin 2) * 1024 + 1 * k.val = k.val; rw [e0]; omega
  | ⟨1, _⟩ => show win0_1.index t (1 : Fin 2) * 1024 + 1 * q.val = q.val; rw [e1]; omega

theorem iblk3_apply (c : Dev nD) (t : Fin cfg0.N) (k : Fin 256) (q : Fin 1024) :
    ((iblk m c 3 t : FVec Ideal S256x1024 .bf16) (ix2 k q) : EReal) = (V m c main_v76 : S256x1024.Idx → EReal) (ix2 k q) := by
  obtain ⟨-, ⟨e0, e1⟩, -⟩ := idx_whole t
  unfold iblk
  rw [View.read_apply]
  show V m c main_v76 _ = V m c main_v76 _
  congr 1
  funext a
  apply Fin.ext
  match a with
  | ⟨0, _⟩ => show win0_3.index t (0 : Fin 2) * 256 + 1 * k.val = k.val; rw [e0]; omega
  | ⟨1, _⟩ => show win0_3.index t (1 : Fin 2) * 1024 + 1 * q.val = q.val; rw [e1]; omega

theorem iblk5_apply (c : Dev nD) (t : Fin cfg0.N) (k : Fin 64) (q : Fin 1024) :
    ((iblk m c 5 t : FVec Ideal S64x1024 .bf16) (ix2 k q) : EReal) = (V m c main_v78 : S64x1024.Idx → EReal) (ix2 k q) := by
  obtain ⟨-, -, ⟨e0, e1⟩, -⟩ := idx_whole t
  unfold iblk
  rw [View.read_apply]
  show V m c main_v78 _ = V m c main_v78 _
  congr 1
  funext a
  apply Fin.ext
  match a with
  | ⟨0, _⟩ => show win0_5.index t (0 : Fin 2) * 64 + 1 * k.val = k.val; rw [e0]; omega
  | ⟨1, _⟩ => show win0_5.index t (1 : Fin 2) * 1024 + 1 * q.val = q.val; rw [e1]; omega

theorem iblk7_apply (c : Dev nD) (t : Fin cfg0.N) (k : Fin 16) (q : Fin 1024) :
    ((iblk m c 7 t : FVec Ideal S16x1024 .bf16) (ix2 k q) : EReal) = (V m c main_v80 : S16x1024.Idx → EReal) (ix2 k q) := by
  obtain ⟨-, -, -, ⟨e0, e1⟩⟩ := idx_whole t
  unfold iblk
  rw [View.read_apply]
  show V m c main_v80 _ = V m c main_v80 _
  congr 1
  funext a
  apply Fin.ext
  match a with
  | ⟨0, _⟩ => show win0_7.index t (0 : Fin 2) * 16 + 1 * k.val = k.val; rw [e0]; omega
  | ⟨1, _⟩ => show win0_7.index t (1 : Fin 2) * 1024 + 1 * q.val = q.val; rw [e1]; omega

/-! ## What each point writes back, and the array after the run -/

/-- The function the result array ends holding: the reference's chain of selects of the launch arrays. -/
def G (c : Dev nD) : S32768x1024.Idx → EReal :=
  val_main_v67 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-- Entry `(p, q)` of the output's block at point `t` is entry `(1024·t + p, q)` of the array. -/
theorem out_emb (t : Fin cfg0.N) (p q : Fin 1024) :
    ((cfg0.win 8).blk t).view.emb (ix2 p q) = (ix2 (row t p) q : S32768x1024.Idx) := by
  obtain ⟨-, -, -, -, e0, e1⟩ := idx_rows t
  funext a
  apply Fin.ext
  match a with
  | ⟨0, _⟩ => show win0_8.index t (0 : Fin 2) * 1024 + 1 * p.val = 1024 * t.val + p.val; rw [e0]; omega
  | ⟨1, _⟩ => show win0_8.index t (1 : Fin 2) * 1024 + 1 * q.val = q.val; rw [e1]; omega

set_option maxHeartbeats 2000000 in
/-- The value point `t` leaves at `(p, q)` is `G` at `(1024·t + p, q)`. -/
theorem point_value (c : Dev nD) (t : Fin cfg0.N) (p q : Fin 1024) :
    (k0_pay1 (F := Ideal) (iblk m c 0 t) (iblk m c 1 t) (iblk m c 2 t) (iblk m c 3 t) (iblk m c 4 t) (iblk m c 5 t) (iblk m c 6 t) (iblk m c 7 t) (ix2 p q) : EReal)
      = G m c (ix2 (row t p) q) := by
  refine (block_at (iblk m c 0 t) (iblk m c 1 t) (iblk m c 2 t) (iblk m c 3 t) (iblk m c 4 t) (iblk m c 5 t) (iblk m c 6 t) (iblk m c 7 t)
    (V m c main_v72) (V m c main_v74) (V m c main_v75) (V m c main_v76) (V m c main_v77) (V m c main_v78) (V m c main_v79) (V m c main_v80)
    (row t p) p q (iblk0_apply m c t p) (fun k => iblk1_apply m c t k q) (iblk2_apply m c t p) (fun k => iblk3_apply m c t k q)
    (iblk4_apply m c t p) (fun k => iblk5_apply m c t k q) (iblk6_apply m c t p) (fun k => iblk7_apply m c t k q)).trans ?_
  rw [Staged.V_v72 m c, Staged.V_v74 m c, Staged.V_v75 m c, Staged.V_v76 m c, Staged.V_v77 m c, Staged.V_v78 m c, Staged.V_v79 m c, Staged.V_v80 m c]
  have hW : ∀ k : Fin 1024, (transpose S1024x1024 [1, 0] (m ((c : Thread nD τ).loc main_arg2)) transposes_S1024x1024_S1024x1024_1_0 (ix2 k q) : EReal)
      = (m ((c : Thread nD τ).loc main_arg2) : S1024x1024.Idx → EReal) (ix2 q k) := fun k => headW_apply _ k q
  simp only [gated_apply, truncf_apply, hW]
  exact Cert.ReferenceIdeal.RefValue.gated_sums_eq_ref (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (row t p) q

/-- WHAT POINT `t` WRITES BACK is block `t` of `G`. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  unfold out0_8
  rw [View.canon_unit_zero hz]
  simp only [View.ld_unit_zero (S := S1024x1024) hz, View.ld_unit_zero (S := S1024x256) hz, View.ld_unit_zero (S := S256x1024) hz,
    View.ld_unit_zero (S := S1024x64) hz, View.ld_unit_zero (S := S64x1024) hz, View.ld_unit_zero (S := S1024x16) hz,
    View.ld_unit_zero (S := S16x1024) hz]
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (iblk m c 7 t) (ix2 p q)
    = G m c (((cfg0.win 8).blk t).view.emb (ix2 p q))
  rw [out_emb]
  exact point_value m c t p q

/-- An index of the array is in point `t`'s block iff each coordinate is in the block's range on its axis. -/
theorem mem_blk (t : Fin cfg0.N) (i : S32768x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v81).slice (win0_8.rect t)).set ↔ _
  rw [View.set_slice_whole, Rect.mem_set_unit]
  exact Iff.rfl

/-- Every entry of the array is in some point's block: row `r` is in block `r / 1024`. -/
theorem cover (i : S32768x1024.Idx) : ∃ t : Fin cfg0.N, (cfg0.win 8).flush t = true ∧ i ∈ ((cfg0.win 8).blk t).view.set := by
  have hi0 : (i 0).val < 32768 := (i 0).isLt
  have hi1 : (i 1).val < 1024 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨-, -, -, -, e0, e1⟩ := idx_rows t
  refine ⟨t, flush0_8 t, ?_⟩
  rw [mem_blk]
  intro a
  match a with
  | ⟨0, _⟩ =>
    show win0_8.index t (0 : Fin 2) * 1024 ≤ (i 0).val ∧ (i 0).val < win0_8.index t (0 : Fin 2) * 1024 + 1024
    rw [e0, ht]; omega
  | ⟨1, _⟩ =>
    show win0_8.index t (1 : Fin 2) * 1024 ≤ (i 1).val ∧ (i 1).val < win0_8.index t (1 : Fin 2) * 1024 + 1024
    rw [e1]; omega

/-- THE ARRAY after the run is `G`. -/
theorem final (c : Dev nD) : (dats m 0 c).arrAt 8 cfg0.N = G m c :=
  (dats m 0 c).arrAt_eq_of_cover 8 (G m c) (fun t _ => flushed_eq m c t) cover

/-! ## The run, read: the region's array reshaped by the one host operation after it -/

/-- The program's result: `G` viewed as [8, 4096, 1024]. -/
def result (c : Dev nD) : S8x4096x1024.Idx → EReal :=
  shapeCast S8x4096x1024 (G m c) shapeCasts_S32768x1024_S8x4096x1024

/-- The result buffer after the host's reshape of the region's array. -/
theorem tail_result (c : Dev nD) :
    Pipeline.afterTail₀ cfgs (dats m) 0 (V0 m) [hostOps1] c main_v82 = result m c := by
  unfold Pipeline.afterTail₀ result
  show StableHlo.after hostOps1 _ (Proc.devRef .tc main_v82) = _
  after_results
  exact congrArg (fun x => shapeCast S8x4096x1024 x shapeCasts_S32768x1024_S8x4096x1024)
    ((Pipeline.withArrays_arr spec0 launch0.win.arr_inj c _ _ 8).trans (final m c))

/-- Every weakly fair execution ends with the result at the reshaped `G` and the arguments unchanged. -/
theorem run : θ_run defs (onTc (τ := τ) (main (F := Ideal))) ⟨m, fun _ => 0, ρ⟩ fun r => ∀ c : Dev nD,
      r.2.mem ((c.tc : Thread nD τ).loc main_v82) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(((h c).2 main_v82 (Pipeline.mem_restRefs_of main_v82 (by decide) (by decide))).trans (tail_result m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Block

end
-- ==== Proof.lean ====
/-
  Adaptive input embedding: tokens fall into four consecutive buckets (below 10000, up to 60000, up to 190000, up to
  250000); each bucket has its own embedding table and its own projection to 1024 features.

  The kernel gathers, for every token, one row from each of the four tables, multiplies each gathered row by the flag of
  its bucket (1 when the token is in the bucket, 0 otherwise), and in one pipelined region adds the four projections of the
  flagged rows, 1024 tokens per grid point.  The reference projects the four gathered rows unflagged and picks, starting
  from 0, the projection of the bucket whose flag is set.  On the extended reals a row times 0 is 0 and a dot product
  with a zero row is 0, whatever the entries, and the buckets exclude one another, so at every token and feature the
  kernel's sum has at most one term that is not 0: the reference's pick (Proof/Bridge.lean).  Proof/KernelBlock.lean reads
  the region's array off the generated frame run block by block and carries it through the final reshape, which both
  programs share; Proof/RefValue.lean reads the reference's stages; the frames are the generated ones, the reference's
  being its generated run with the result dropped.  The ideal pass rewrote nothing, so the idealization claim is trivial.
-/
import proofs.«166075_j43550968381892_1_alg».proof.Defs
import proofs.«166075_j43550968381892_1_alg».proof.Proof.Gen.Kernel
import proofs.«166075_j43550968381892_1_alg».proof.Proof.Gen.Kernel.Skeleton
import proofs.«166075_j43550968381892_1_alg».proof.Proof.Gen.Kernel.Launch
import proofs.«166075_j43550968381892_1_alg».proof.Proof.Gen.Kernel.Points
import proofs.«166075_j43550968381892_1_alg».proof.Proof.Gen.Kernel.Frame
import proofs.«166075_j43550968381892_1_alg».proof.Proof.Gen.KernelIdeal
import proofs.«166075_j43550968381892_1_alg».proof.Proof.Gen.KernelIdeal.Skeleton
import proofs.«166075_j43550968381892_1_alg».proof.Proof.Gen.KernelIdeal.Launch
import proofs.«166075_j43550968381892_1_alg».proof.Proof.Gen.KernelIdeal.Points
import proofs.«166075_j43550968381892_1_alg».proof.Proof.Gen.KernelIdeal.Frame
import proofs.«166075_j43550968381892_1_alg».proof.Proof.Gen.ReferenceIdeal
import proofs.«166075_j43550968381892_1_alg».proof.Proof.Gen.Pre_finite_inputs
import proofs.«166075_j43550968381892_1_alg».proof.Proof.Gen.ReferenceIdeal.Run
import proofs.«166075_j43550968381892_1_alg».proof.Proof.Gen.ReferenceIdeal.Read
import proofs.«166075_j43550968381892_1_alg».proof.Proof.KernelBlock
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same reshape of a [32768, 1024] array; the kernel's array is the reference's chain of
    selects of the launch arrays (Proof/KernelBlock.lean), and the launch arrays agree. -/
theorem algebraic : Cert.algebraic_KernelIdeal_ReferenceIdeal := by
  intro m ρ m' ρ' _ hagree
  refine ⟨fun c => Cert.KernelIdeal.Block.result m c, Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq]
  obtain ⟨e0, e1, e2, e3, e4, e5, e6, e7, e8⟩ := hagree c
  rw [e0, e1, e2, e3, e4, e5, e6, e7, e8]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
